-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x300000 : Shape := ⟨2, ![2, 300000]⟩
abbrev S256x512 : Shape := ⟨2, ![256, 512]⟩
abbrev S512 : Shape := ⟨1, ![512]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x512 : S_.BroadcastsInDim S256x512 (![] : Fin 0 → Fin S256x512.rank)
  reducesTo_S256x512_S_d0_1 : S256x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg5 : FVec F S512 .f32) (main_v13 : IVec S_ 1) (main_v16 : IVec S256x512 1) : IVec S_ 1 :=
  let main_c_5 : IVec S_ 1 := constantI S_ 1 1#1
  let main_v17 : IVec S_ 1 := (fun x v => Host.reduce IntOp.andi x v reducesTo_S256x512_S_d0_1 h_S_) main_v16 main_c_5
  let main_v18 : IVec S_ 1 := andi main_v13 main_v17
  let main_v19 : FVec F S512 .f32 := Host.absf main_arg5
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  main_v23

def fn {F : FTy → Type} [FloatOps F] (main_arg0 : FVec F S100000x256 .f32) (main_arg1 : IVec S2x300000 32) (main_arg2 : FVec F S256x512 .f32) (main_arg3 : FVec F S512 .f32) (main_arg4 : FVec F S256x512 .f32) (main_arg5 : FVec F S512 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x512 .f32 := Host.absf main_arg2
  let main_cst_0 : FVec F S_ .f32 := constant S_ .f32 0x7F800000#32
  let main_v5 : FVec F S256x512 .f32 := broadcastInDim S256x512 ![] bcast_S_S256x512 main_cst_0
  let main_v6 : IVec S256x512 1 := cmpf .olt main_v4 main_v5
  let main_c_1 : IVec S_ 1 := constantI S_ 1 1#1
  let main_v7 : IVec S_ 1 := (fun x v => Host.reduce IntOp.andi x v reducesTo_S256x512_S_d0_1 h_S_) main_v6 main_c_1
  let main_v8 : IVec S_ 1 := andi main_v3 main_v7
  let main_v9 : FVec F S512 .f32 := Host.absf main_arg3
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S256x512 .f32 := Host.absf main_arg4
  let main_cst_4 : FVec F S_ .f32 := constant S_ .f32 0x7F800000#32
  let main_v15 : FVec F S256x512 .f32 := broadcastInDim S256x512 ![] bcast_S_S256x512 main_cst_4
  let main_v16 : IVec S256x512 1 := cmpf .olt main_v14 main_v15
  fn_part1 (F := F) main_arg5 main_v13 main_v16
-- ==== Kernel.lean ====
abbrev S100000x256 : Shape := ⟨2, ![100000, 256]⟩
abbrev S2x300000 : Shape := ⟨2, ![2, 300000]⟩
abbrev S256x512 : Shape := ⟨2, ![256, 512]⟩
abbrev S512 : Shape := ⟨1, ![512]⟩
abbrev S1x300000 : Shape := ⟨2, ![1, 300000]⟩
abbrev S300000 : Shape := ⟨1, ![300000]⟩
abbrev S_ : Shape := ⟨0, ![]⟩
abbrev S300000x1 : Shape := ⟨2, ![300000, 1]⟩
abbrev S300000x256 : Shape := ⟨2, ![300000, 256]⟩
abbrev S100000 : Shape := ⟨1, ![100000]⟩
abbrev S100000x1 : Shape := ⟨2, ![100000, 1]⟩
abbrev S1x512 : Shape := ⟨2, ![1, 512]⟩
abbrev S100000x512 : Shape := ⟨2, ![100000, 512]⟩
abbrev S2000x256 : Shape := ⟨2, ![2000, 256]⟩
abbrev S2000x512 : Shape := ⟨2, ![2000, 512]⟩

abbrev nBuf : Space → Nat
  | .hbm => 42
  | .vmem => 10
  | .smem => 0
  | _ => 0

abbrev bufTy : (tb : Table) → Fin (tcTables nBuf tb) → BufTy
  | .hbm, ⟨0, _⟩ => ⟨S100000x256, .f32⟩
  | .hbm, ⟨1, _⟩ => ⟨S2x300000, .i32⟩
  | .hbm, ⟨2, _⟩ => ⟨S256x512, .f32⟩
  | .hbm, ⟨3, _⟩ => ⟨S512, .f32⟩
  | .hbm, ⟨4, _⟩ => ⟨S256x512, .f32⟩
  | .hbm, ⟨5, _⟩ => ⟨S512, .f32⟩
  | .hbm, ⟨6, _⟩ => ⟨S1x300000, .i32⟩
  | .hbm, ⟨7, _⟩ => ⟨S300000, .i32⟩
  | .hbm, ⟨8, _⟩ => ⟨S1x300000, .i32⟩
  | .hbm, ⟨9, _⟩ => ⟨S300000, .i32⟩
  | .hbm, ⟨10, _⟩ => ⟨S_, .i32⟩
  | .hbm, ⟨11, _⟩ => ⟨S300000, .i32⟩
  | .hbm, ⟨12, _⟩ => ⟨S300000, .i1⟩
  | .hbm, ⟨13, _⟩ => ⟨S_, .i32⟩
  | .hbm, ⟨14, _⟩ => ⟨S300000, .i32⟩
  | .hbm, ⟨15, _⟩ => ⟨S300000, .i32⟩
  | .hbm, ⟨16, _⟩ => ⟨S300000, .i32⟩
  | .hbm, ⟨17, _⟩ => ⟨S300000x1, .i32⟩
  | .hbm, ⟨18, _⟩ => ⟨S300000x256, .f32⟩
  | .hbm, ⟨19, _⟩ => ⟨S_, .f32⟩
  | .hbm, ⟨20, _⟩ => ⟨S100000x256, .f32⟩
  | .hbm, ⟨21, _⟩ => ⟨S300000x1, .i32⟩
  | .hbm, ⟨22, _⟩ => ⟨S100000x256, .f32⟩
  | .hbm, ⟨23, _⟩ => ⟨S_, .f32⟩
  | .hbm, ⟨24, _⟩ => ⟨S300000, .f32⟩
  | .hbm, ⟨25, _⟩ => ⟨S_, .f32⟩
  | .hbm, ⟨26, _⟩ => ⟨S100000, .f32⟩
  | .hbm, ⟨27, _⟩ => ⟨S300000x1, .i32⟩
  | .hbm, ⟨28, _⟩ => ⟨S100000, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S100000x1, .f32⟩
  | .hbm, ⟨33, _⟩ => ⟨S100000x256, .f32⟩
  | .hbm, ⟨34, _⟩ => ⟨S100000x256, .f32⟩
  | .hbm, ⟨35, _⟩ => ⟨S100000x256, .bf16⟩
  | .hbm, ⟨36, _⟩ => ⟨S100000x256, .bf16⟩
  | .hbm, ⟨37, _⟩ => ⟨S256x512, .bf16⟩
  | .hbm, ⟨38, _⟩ => ⟨S256x512, .bf16⟩
  | .hbm, ⟨39, _⟩ => ⟨S1x512, .f32⟩
  | .hbm, ⟨40, _⟩ => ⟨S1x512, .f32⟩
  | .hbm, ⟨41, _⟩ => ⟨S100000x512, .f32⟩
  | .local _ .vmem, ⟨0, _⟩ => ⟨S2000x256, .bf16⟩
  | .local _ .vmem, ⟨1, _⟩ => ⟨S2000x256, .bf16⟩
  | .local _ .vmem, ⟨2, _⟩ => ⟨S2000x256, .bf16⟩
  | .local _ .vmem, ⟨3, _⟩ => ⟨S2000x256, .bf16⟩
  | .local _ .vmem, ⟨4, _⟩ => ⟨S256x512, .bf16⟩
  | .local _ .vmem, ⟨5, _⟩ => ⟨S1x512, .f32⟩
  | .local _ .vmem, ⟨6, _⟩ => ⟨S256x512, .bf16⟩
  | .local _ .vmem, ⟨7, _⟩ => ⟨S1x512, .f32⟩
  | .local _ .vmem, ⟨8, _⟩ => ⟨S2000x512, .f32⟩
  | .local _ .vmem, ⟨9, _⟩ => ⟨S2000x512, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  slices_S2x300000_S1x300000_0_0 : S2x300000.Slices ![0, 0] S1x300000
  shapeCasts_S1x300000_S300000 : S1x300000.ShapeCasts S300000
  slices_S2x300000_S1x300000_1_0 : S2x300000.Slices ![1, 0] S1x300000
  bcast_S_S300000 : S_.BroadcastsInDim S300000 (![] : Fin 0 → Fin S300000.rank)
  bcast_S300000_S300000x1_0 : S300000.BroadcastsInDim S300000x1 (![0] : Fin 1 → Fin S300000x1.rank)
  bcast_S_S100000x256 : S_.BroadcastsInDim S100000x256 (![] : Fin 0 → Fin S100000x256.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x256_0_1 : S100000x1.BroadcastsInDim S100000x256 (![0, 1] : Fin 2 → Fin S100000x256.rank)
  bitsLt_bf16_f32 : FTy.bits .bf16 < FTy.bits .f32
  shapeCasts_S512_S1x512 : S512.ShapeCasts S1x512
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2000x512 : S1x512.Broadcasts S2000x512
  inb_S2000x512_S2000x512_0_0 : ∀ a, (![0, 0] : Fin 2 → Nat) a + S2000x512.size a ≤ S2000x512.size a
  h_S2000x512 : 0 < S2000x512.numel
  gather_S100000x256_S300000x1_S300000x256_1_0_n_n_0_1_1256_wf : GatherDims.WF S100000x256 S300000x1 S300000x256 [1] [0] [] [0] [] 1 ![1, 256]
  scatter_S100000x256_S300000x1_S300000x256_1_0_0_1_wf : ScatterDims.WF S100000x256 S300000x1 S300000x256 [1] [0] [0] 1
  scatter_S100000_S300000x1_S300000_n_0_0_1_wf : ScatterDims.WF S100000 S300000x1 S300000 [] [0] [0] 1
  dot_S2000x256_S256x512_S2000x512_1_0_0_1_n_n_wf : DotDims.WF S2000x256 S256x512 S2000x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S100000x256.size a
  hwx0_0 : ∀ i : grid0.Coords, EltTy.bits .bf16 = 32 ∨ (Rect.block (s := S100000x256) S2000x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x256.size a ≤ S100000x256.size a
  hwx0_1 : ∀ i : grid0.Coords, EltTy.bits .bf16 = 32 ∨ (Rect.block (s := S100000x256) S2000x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x512.size a ≤ S256x512.size a
  hwx0_2 : ∀ i : grid0.Coords, EltTy.bits .bf16 = 32 ∨ (Rect.block (s := S256x512) S256x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x512.size a ≤ S256x512.size a
  hwx0_4 : ∀ i : grid0.Coords, EltTy.bits .bf16 = 32 ∨ (Rect.block (s := S256x512) S256x512.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x512.size a
  hwx0_5 : ∀ i : grid0.Coords, EltTy.bits .f32 = 32 ∨ (Rect.block (s := S1x512) S1x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x512.size a ≤ S100000x512.size a
  hwx0_6 : ∀ i : grid0.Coords, EltTy.bits .f32 = 32 ∨ (Rect.block (s := S100000x512) S2000x512.size (cc0_transform_6 i) (hinb0_6 i)).WholeWords (EltTy.packing .f32)

variable [Facts₀]

def gather_S100000x256_S300000x1_S300000x256_1_0_n_n_0_1_1256 : GatherDims S100000x256 S300000x1 S300000x256 where
  offsetDims := [1]
  collapsedSliceDims := [0]
  operandBatchingDims := []
  startIndicesBatchingDims := []
  startIndexMap := [0]
  indexVectorDim := 1
  sliceSizes := ![1, 256]
  wf := gather_S100000x256_S300000x1_S300000x256_1_0_n_n_0_1_1256_wf
def scatter_S100000x256_S300000x1_S300000x256_1_0_0_1 : ScatterDims S100000x256 S300000x1 S300000x256 where
  updateWindowDims := [1]
  insertedWindowDims := [0]
  scatterDimsToOperandDims := [0]
  indexVectorDim := 1
  wf := scatter_S100000x256_S300000x1_S300000x256_1_0_0_1_wf
def scatter_S100000_S300000x1_S300000_n_0_0_1 : ScatterDims S100000 S300000x1 S300000 where
  updateWindowDims := []
  insertedWindowDims := [0]
  scatterDimsToOperandDims := [0]
  indexVectorDim := 1
  wf := scatter_S100000_S300000x1_S300000_n_0_0_1_wf
def dot_S2000x256_S256x512_S2000x512_1_0_0_1_n_n : DotDims S2000x256 S256x512 S2000x512 where
  lhsContracting := [1]
  rhsContracting := [0]
  lhsNonContracting := [0]
  rhsNonContracting := [1]
  lhsBatch := []
  rhsBatch := []
  wf := dot_S2000x256_S256x512_S2000x512_1_0_0_1_n_n_wf

abbrev win0_0 : Pipeline.Window sig grid0 :=
  Pipeline.Window.ofSpec (Memref.whole main_v23) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v24) S2000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v25) S256x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v27) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v26) S256x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v28) S1x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v29) S2000x512.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S100000x256 : Shape := ⟨2, ![100000, 256]⟩
abbrev S2x300000 : Shape := ⟨2, ![2, 300000]⟩
abbrev S256x512 : Shape := ⟨2, ![256, 512]⟩
abbrev S512 : Shape := ⟨1, ![512]⟩
abbrev S1x300000 : Shape := ⟨2, ![1, 300000]⟩
abbrev S300000 : Shape := ⟨1, ![300000]⟩
abbrev S100000x512 : Shape := ⟨2, ![100000, 512]⟩
abbrev S1x512 : Shape := ⟨2, ![1, 512]⟩
abbrev S_ : Shape := ⟨0, ![]⟩
abbrev S300000x1 : Shape := ⟨2, ![300000, 1]⟩
abbrev S300000x256 : Shape := ⟨2, ![300000, 256]⟩
abbrev S100000 : Shape := ⟨1, ![100000]⟩
abbrev S100000x1 : Shape := ⟨2, ![100000, 1]⟩

abbrev nBuf : Space → Nat
  | .hbm => 44
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S2x300000, .i32⟩
  | .hbm, ⟨2, _⟩ => ⟨S256x512, .f32⟩
  | .hbm, ⟨3, _⟩ => ⟨S512, .f32⟩
  | .hbm, ⟨4, _⟩ => ⟨S256x512, .f32⟩
  | .hbm, ⟨5, _⟩ => ⟨S512, .f32⟩
  | .hbm, ⟨6, _⟩ => ⟨S1x300000, .i32⟩
  | .hbm, ⟨7, _⟩ => ⟨S300000, .i32⟩
  | .hbm, ⟨8, _⟩ => ⟨S1x300000, .i32⟩
  | .hbm, ⟨9, _⟩ => ⟨S300000, .i32⟩
  | .hbm, ⟨10, _⟩ => ⟨S100000x512, .f32⟩
  | .hbm, ⟨11, _⟩ => ⟨S1x512, .f32⟩
  | .hbm, ⟨12, _⟩ => ⟨S100000x512, .f32⟩
  | .hbm, ⟨13, _⟩ => ⟨S100000x512, .f32⟩
  | .hbm, ⟨14, _⟩ => ⟨S_, .i32⟩
  | .hbm, ⟨15, _⟩ => ⟨S300000, .i32⟩
  | .hbm, ⟨16, _⟩ => ⟨S300000, .i1⟩
  | .hbm, ⟨17, _⟩ => ⟨S_, .i32⟩
  | .hbm, ⟨18, _⟩ => ⟨S300000, .i32⟩
  | .hbm, ⟨19, _⟩ => ⟨S300000, .i32⟩
  | .hbm, ⟨20, _⟩ => ⟨S300000, .i32⟩
  | .hbm, ⟨21, _⟩ => ⟨S300000x1, .i32⟩
  | .hbm, ⟨22, _⟩ => ⟨S300000x256, .f32⟩
  | .hbm, ⟨23, _⟩ => ⟨S_, .f32⟩
  | .hbm, ⟨24, _⟩ => ⟨S100000x256, .f32⟩
  | .hbm, ⟨25, _⟩ => ⟨S300000x1, .i32⟩
  | .hbm, ⟨26, _⟩ => ⟨S100000x256, .f32⟩
  | .hbm, ⟨27, _⟩ => ⟨S_, .f32⟩
  | .hbm, ⟨28, _⟩ => ⟨S300000, .f32⟩
  | .hbm, ⟨29, _⟩ => ⟨S_, .f32⟩
  | .hbm, ⟨30, _⟩ => ⟨S100000, .f32⟩
  | .hbm, ⟨31, _⟩ => ⟨S300000x1, .i32⟩
  | .hbm, ⟨32, _⟩ => ⟨S100000, .f32⟩
  | .hbm, ⟨33, _⟩ => ⟨S_, .f32⟩
  | .hbm, ⟨34, _⟩ => ⟨S100000, .f32⟩
  | .hbm, ⟨35, _⟩ => ⟨S100000, .f32⟩
  | .hbm, ⟨36, _⟩ => ⟨S100000x1, .f32⟩
  | .hbm, ⟨37, _⟩ => ⟨S100000x256, .f32⟩
  | .hbm, ⟨38, _⟩ => ⟨S100000x256, .f32⟩
  | .hbm, ⟨39, _⟩ => ⟨S100000x512, .f32⟩
  | .hbm, ⟨40, _⟩ => ⟨S1x512, .f32⟩
  | .hbm, ⟨41, _⟩ => ⟨S100000x512, .f32⟩
  | .hbm, ⟨42, _⟩ => ⟨S100000x512, .f32⟩
  | .hbm, ⟨43, _⟩ => ⟨S100000x512, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_v8 : Ref sig .tc := ⟨.hbm, 15, rfl⟩
abbrev main_v9 : Ref sig .tc := ⟨.hbm, 16, rfl⟩
abbrev main_c_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_1 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩

abbrev nD : Nat := 1
abbrev τ : Topo := Topo.v7x

variable {F : FTy → Type} [FloatOps F]

class Facts₀ : Prop where
  slices_S2x300000_S1x300000_0_0 : S2x300000.Slices ![0, 0] S1x300000
  shapeCasts_S1x300000_S300000 : S1x300000.ShapeCasts S300000
  slices_S2x300000_S1x300000_1_0 : S2x300000.Slices ![1, 0] S1x300000
  bcast_S512_S1x512_1 : S512.BroadcastsInDim S1x512 (![1] : Fin 1 → Fin S1x512.rank)
  bcast_S1x512_S100000x512_0_1 : S1x512.BroadcastsInDim S100000x512 (![0, 1] : Fin 2 → Fin S100000x512.rank)
  bcast_S_S300000 : S_.BroadcastsInDim S300000 (![] : Fin 0 → Fin S300000.rank)
  bcast_S300000_S300000x1_0 : S300000.BroadcastsInDim S300000x1 (![0] : Fin 1 → Fin S300000x1.rank)
  bcast_S_S100000x256 : S_.BroadcastsInDim S100000x256 (![] : Fin 0 → Fin S100000x256.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x256_0_1 : S100000x1.BroadcastsInDim S100000x256 (![0, 1] : Fin 2 → Fin S100000x256.rank)
  dot_S100000x256_S256x512_S100000x512_1_0_0_1_n_n_wf : DotDims.WF S100000x256 S256x512 S100000x512 [1] [0] [0] [1] [] []
  gather_S100000x256_S300000x1_S300000x256_1_0_n_n_0_1_1256_wf : GatherDims.WF S100000x256 S300000x1 S300000x256 [1] [0] [] [0] [] 1 ![1, 256]
  scatter_S100000x256_S300000x1_S300000x256_1_0_0_1_wf : ScatterDims.WF S100000x256 S300000x1 S300000x256 [1] [0] [0] 1
  scatter_S100000_S300000x1_S300000_n_0_0_1_wf : ScatterDims.WF S100000 S300000x1 S300000 [] [0] [0] 1

variable [Facts₀]

def dot_S100000x256_S256x512_S100000x512_1_0_0_1_n_n : DotDims S100000x256 S256x512 S100000x512 where
  lhsContracting := [1]
  rhsContracting := [0]
  lhsNonContracting := [0]
  rhsNonContracting := [1]
  lhsBatch := []
  rhsBatch := []
  wf := dot_S100000x256_S256x512_S100000x512_1_0_0_1_n_n_wf
def gather_S100000x256_S300000x1_S300000x256_1_0_n_n_0_1_1256 : GatherDims S100000x256 S300000x1 S300000x256 where
  offsetDims := [1]
  collapsedSliceDims := [0]
  operandBatchingDims := []
  startIndicesBatchingDims := []
  startIndexMap := [0]
  indexVectorDim := 1
  sliceSizes := ![1, 256]
  wf := gather_S100000x256_S300000x1_S300000x256_1_0_n_n_0_1_1256_wf
def scatter_S100000x256_S300000x1_S300000x256_1_0_0_1 : ScatterDims S100000x256 S300000x1 S300000x256 where
  updateWindowDims := [1]
  insertedWindowDims := [0]
  scatterDimsToOperandDims := [0]
  indexVectorDim := 1
  wf := scatter_S100000x256_S300000x1_S300000x256_1_0_0_1_wf
def scatter_S100000_S300000x1_S300000_n_0_0_1 : ScatterDims S100000 S300000x1 S300000 where
  updateWindowDims := []
  insertedWindowDims := [0]
  scatterDimsToOperandDims := [0]
  indexVectorDim := 1
  wf := scatter_S100000_S300000x1_S300000_n_0_0_1_wf

class Facts : Prop extends Facts₀ where

variable [Facts]
-- ==== Proof.Spec.lean ====
/-
  The graph-convolution layer as one function of its arrays, index by index, over the extended reals.

  A node's output feature `j` is the node's own row of `X` against column `j` of the self weights, plus the self
  bias, plus the node's row of the neighbour means `A` against column `j` of the neighbour weights, plus the
  neighbour bias. The two programs add these four terms in different groupings; addition of extended reals is
  associative (with the convention `⊥ + ⊤ = ⊥` it is a commutative monoid), so the groupings agree at every
  input, finite or not.
-/
import Idealize.ShloMosaic.PureOps.Ideal
import Idealize.ShloMosaic.Lib.ValueIdx

noncomputable section

namespace Cert.GraphConv

open Idealize.ShloMosaic Idealize.ShloMosaic.ValueIdx

/-- Node features, and the neighbour means: one row of 256 per node. -/
abbrev Feat : Shape := ⟨2, ![100000, 256]⟩
/-- A weight matrix: 256 input features by 512 output features. -/
abbrev Wt : Shape := ⟨2, ![256, 512]⟩
/-- A bias: one entry per output feature. -/
abbrev Bias : Shape := ⟨1, ![512]⟩
/-- The layer's result: one row of 512 per node. -/
abbrev Res : Shape := ⟨2, ![100000, 512]⟩
/-- A bias laid out as a one-row matrix. -/
abbrev BiasRow : Shape := ⟨2, ![1, 512]⟩

/-- A one-row matrix read as a vector of 512 entries. -/
def rowVec (b : BiasRow.Idx → EReal) : Bias.Idx → EReal := fun j => b (ix2 (0 : Fin 1) (j 0))

/-- Row `p` of `X` against column `q` of `W`: the sum over the 256 shared features of the products. -/
def rowCol (X : Feat.Idx → EReal) (W : Wt.Idx → EReal) (p : Fin 100000) (q : Fin 512) : EReal :=
  ∑ k : Fin 256, X (ix2 p k) * W (ix2 k q)

/-- The layer at node `p`, feature `q`, added left to right: self product, self bias, neighbour product,
    neighbour bias. -/
def layerAt (X A : Feat.Idx → EReal) (Ws Wn : Wt.Idx → EReal) (bs bn : Bias.Idx → EReal) (p : Fin 100000) (q : Fin 512) : EReal :=
  ((rowCol X Ws p q + bs (ix1 q)) + rowCol A Wn p q) + bn (ix1 q)

/-- The layer as an array. -/
def layer (X A : Feat.Idx → EReal) (Ws Wn : Wt.Idx → EReal) (bs bn : Bias.Idx → EReal) : Res.Idx → EReal :=
  fun i => layerAt X A Ws Wn bs bn (i 0) (i 1)

/-- Adding the biased self path to the biased neighbour path is the left-to-right sum of the four terms. -/
theorem paths_add (X A : Feat.Idx → EReal) (Ws Wn : Wt.Idx → EReal) (bs bn : Bias.Idx → EReal) (p : Fin 100000) (q : Fin 512) :
    (rowCol X Ws p q + bs (ix1 q)) + (rowCol A Wn p q + bn (ix1 q)) = layerAt X A Ws Wn bs bn p q :=
  (add_assoc _ _ _).symm

end Cert.GraphConv

end
-- ==== Proof.RefLayer.lean ====
/-
  The reference computes the layer: its result array, read one operation at a time, is `layer` of the node
  features, of its own neighbour means (the array its divide produces, left unopened here), and of the weights
  and biases. Each matrix product on the host is a sum over the shared feature axis; each bias reaches entry
  `(p, q)` through two broadcasts that both keep the feature coordinate `q`.
-/
import proofs.«150656_j4715874091024_1_alg».proof.Proof.Gen.ReferenceIdeal.Read
import proofs.«150656_j4715874091024_1_alg».proof.Proof.Spec

noncomputable section

namespace Cert.GraphConv.Reference

open Idealize.ShloMosaic Idealize.ShloMosaic.ValueIdx Cert.ReferenceIdeal Cert.ReferenceIdeal.Read

/-- The neighbour means as the reference computes them from the features and the edge list. -/
abbrev means (x : Feat.Idx → EReal) (e : (⟨S2x300000, .i32⟩ : BufTy).Contents (Elt Ideal)) : Feat.Idx → EReal :=
  val_main_v26 (F := Ideal) x e

/-- The self product's left operand index at output `(p, q)`, shared feature `k`, is `(p, k)`. -/
theorem self_lidx (i : S100000x512.Idx) (k : Fin 256) : lidx_main_v4 i k = ix2 (i 0) k :=
  funext fun a => Fin.ext (by match a with | ⟨0, _⟩ => rfl | ⟨1, _⟩ => rfl)

/-- Its right operand index is `(k, q)`. -/
theorem self_ridx (i : S100000x512.Idx) (k : Fin 256) : ridx_main_v4 i k = ix2 k (i 1) :=
  funext fun a => Fin.ext (by match a with | ⟨0, _⟩ => rfl | ⟨1, _⟩ => rfl)

/-- The neighbour product reads its operands at the same places. -/
theorem neigh_lidx (i : S100000x512.Idx) (k : Fin 256) : lidx_main_v27 i k = ix2 (i 0) k :=
  funext fun a => Fin.ext (by match a with | ⟨0, _⟩ => rfl | ⟨1, _⟩ => rfl)

theorem neigh_ridx (i : S100000x512.Idx) (k : Fin 256) : ridx_main_v27 i k = ix2 k (i 1) :=
  funext fun a => Fin.ext (by match a with | ⟨0, _⟩ => rfl | ⟨1, _⟩ => rfl)

/-- Both broadcasts of the self bias keep the feature coordinate, -/
theorem self_bias_idx (i : S100000x512.Idx) : idx_main_v5 (idx_main_v6 i) = ix1 (i 1) :=
  funext fun a => Fin.ext (by match a with | ⟨0, _⟩ => rfl)

/-- and so do the neighbour bias's. -/
theorem neigh_bias_idx (i : S100000x512.Idx) : idx_main_v28 (idx_main_v29 i) = ix1 (i 1) :=
  funext fun a => Fin.ext (by match a with | ⟨0, _⟩ => rfl)

/-- The reference's result is the layer of its arguments and its own neighbour means. -/
theorem result_eq (x : Feat.Idx → EReal) (e : (⟨S2x300000, .i32⟩ : BufTy).Contents (Elt Ideal))
    (ws : Wt.Idx → EReal) (bs : Bias.Idx → EReal) (wn : Wt.Idx → EReal) (bn : Bias.Idx → EReal) :
    val_main_v31 (F := Ideal) x e ws bs wn bn = layer x (means x e) ws wn bs bn := by
  funext i
  rw [val_main_v31_apply, val_main_v7_apply, val_main_v30_apply, val_main_v4_apply, val_main_v27_apply,
    val_main_v6_apply, val_main_v5_apply, val_main_v29_apply, val_main_v28_apply]
  simp only [Ideal.addf_def, self_lidx, self_ridx, neigh_lidx, neigh_ridx, self_bias_idx, neigh_bias_idx]
  exact paths_add x (means x e) ws wn bs bn (i 0) (i 1)

end Cert.GraphConv.Reference

end
-- ==== Proof.TileValue.lean ====
/-
  What one grid step computes, entry by entry. The body loads a tile of 2000 node rows and the matching tile of
  neighbour means, both weight matrices and both bias rows whole, and stores
  `((rows · Ws + bs) + means · Wn) + bn`. Each matrix-unit product into a zero accumulator is, at tile entry
  `(p, q)`, the sum over the 256 shared features of the products; each bias row is repeated down the 2000 rows.
-/
import proofs.«150656_j4715874091024_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.GraphConv.Tile

open Idealize.ShloMosaic Idealize.ShloMosaic.ValueIdx Cert.KernelIdeal Cert.KernelIdeal.Gen

/-- The tile product's left operand coordinates at output `j`: the output's row, -/
theorem lhs_row (j : S2000x512.Idx) (r : dot_S2000x256_S256x512_S2000x512_1_0_0_1_n_n.contr.Idx) : (dot_S2000x256_S256x512_S2000x512_1_0_0_1_n_n.lhsIdx j r 0).val = (j 0).val := by
  unfold DotDims.lhsIdx
  rw [dif_neg (show ¬(0 : Fin S2000x256.rank) ∈ dot_S2000x256_S256x512_S2000x512_1_0_0_1_n_n.lhsBatch by decide), dif_pos (show (0 : Fin S2000x256.rank) ∈ dot_S2000x256_S256x512_S2000x512_1_0_0_1_n_n.lhsNonContracting by decide)]
  rfl

/-- and the shared feature. -/
theorem lhs_feat (j : S2000x512.Idx) (r : dot_S2000x256_S256x512_S2000x512_1_0_0_1_n_n.contr.Idx) : (dot_S2000x256_S256x512_S2000x512_1_0_0_1_n_n.lhsIdx j r 1).val = (r ⟨0, by decide⟩).val :=
  dot_S2000x256_S256x512_S2000x512_1_0_0_1_n_n.lhsIdx_val_of_single rfl j r

/-- Its right operand coordinates: the shared feature, -/
theorem rhs_feat (j : S2000x512.Idx) (r : dot_S2000x256_S256x512_S2000x512_1_0_0_1_n_n.contr.Idx) : (dot_S2000x256_S256x512_S2000x512_1_0_0_1_n_n.rhsIdx j r 0).val = (r ⟨0, by decide⟩).val :=
  dot_S2000x256_S256x512_S2000x512_1_0_0_1_n_n.rhsIdx_val_of_single rfl j r

/-- and the output's column. -/
theorem rhs_col (j : S2000x512.Idx) (r : dot_S2000x256_S256x512_S2000x512_1_0_0_1_n_n.contr.Idx) : (dot_S2000x256_S256x512_S2000x512_1_0_0_1_n_n.rhsIdx j r 1).val = (j 1).val := by
  unfold DotDims.rhsIdx
  rw [dif_neg (show ¬(1 : Fin S256x512.rank) ∈ dot_S2000x256_S256x512_S2000x512_1_0_0_1_n_n.rhsBatch by decide), dif_pos (show (1 : Fin S256x512.rank) ∈ dot_S2000x256_S256x512_S2000x512_1_0_0_1_n_n.rhsNonContracting by decide)]
  rfl

/-- A tile of rows against a weight matrix, into a zero accumulator: entry `(p, q)` is the sum over the shared
    features `k` of `rows (p, k) · w (k, q)`. -/
theorem product_apply (rows : FVec Ideal S2000x256 .bf16) (w : FVec Ideal S256x512 .bf16) (p : Fin 2000) (q : Fin 512) :
    matmul dot_S2000x256_S256x512_S2000x512_1_0_0_1_n_n none rows w (constant (F := Ideal) S2000x512 .f32 0x00000000#32) (ix2 p q)
      = ∑ k : Fin 256, rows (ix2 p k) * w (ix2 k q) := by
  simp only [matmul]
  rw [Ideal.matmul_constant_zero_apply, ← Equiv.sum_comp (contrEquiv1 dot_S2000x256_S256x512_S2000x512_1_0_0_1_n_n 256 rfl rfl).symm]
  refine Finset.sum_congr rfl fun k _ => ?_
  have hk := contrEquiv1_symm_val dot_S2000x256_S256x512_S2000x512_1_0_0_1_n_n 256 rfl rfl k
  have el : dot_S2000x256_S256x512_S2000x512_1_0_0_1_n_n.lhsIdx (ix2 p q) ((contrEquiv1 dot_S2000x256_S256x512_S2000x512_1_0_0_1_n_n 256 rfl rfl).symm k) = ix2 p k := funext fun a => Fin.ext (by
    match a with
    | ⟨0, _⟩ => exact lhs_row _ _
    | ⟨1, _⟩ => exact (lhs_feat _ _).trans hk)
  have er : dot_S2000x256_S256x512_S2000x512_1_0_0_1_n_n.rhsIdx (ix2 p q) ((contrEquiv1 dot_S2000x256_S256x512_S2000x512_1_0_0_1_n_n 256 rfl rfl).symm k) = ix2 k q := funext fun a => Fin.ext (by
    match a with
    | ⟨0, _⟩ => exact (rhs_feat _ _).trans hk
    | ⟨1, _⟩ => exact rhs_col _ _)
  rw [el, er]

/-- The stored tile at `(p, q)`: the rows' product with the self weights, the self bias of feature `q`, the means'
    product with the neighbour weights, the neighbour bias of feature `q`, added in that order. -/
theorem stored_apply (rows : Vec Ideal S2000x256 .bf16) (ws : Vec Ideal S256x512 .bf16) (mns : Vec Ideal S2000x256 .bf16)
    (wn : Vec Ideal S256x512 .bf16) (bs bn : Vec Ideal S1x512 .f32) (p : Fin 2000) (q : Fin 512) :
    k0_pay1 rows ws mns wn bs bn (ix2 p q)
      = (((∑ k : Fin 256, rows (ix2 p k) * ws (ix2 k q)) + bs (ix2 (0 : Fin 1) q))
          + ∑ k : Fin 256, mns (ix2 p k) * wn (ix2 k q)) + bn (ix2 (0 : Fin 1) q) := by
  unfold k0_pay1
  simp only [shapeCast_self]
  rw [addf_apply, addf_apply, addf_apply, product_apply, product_apply, broadcastTo_1b_ab_apply, broadcastTo_1b_ab_apply]

end Cert.GraphConv.Tile

end
-- ==== Proof.KernelArray.lean ====
/-
  From tiles to the whole result. Grid step `t` of 50 reads rows `2000 t … 2000 t + 1999` of the node features
  and of the neighbour means, reads both weight matrices and both bias rows whole, and writes rows
  `2000 t … 2000 t + 1999` of the result. So the tile it writes is that band of rows of `layer` of the arrays as
  the region finds them, and since the 50 bands tile the 100000 rows, the result array ends holding `layer` of
  those arrays.
-/
import proofs.«150656_j4715874091024_1_alg».proof.Proof.Gen.KernelIdeal.Value
import proofs.«150656_j4715874091024_1_alg».proof.Proof.Spec
import proofs.«150656_j4715874091024_1_alg».proof.Proof.TileValue
import Idealize.ShloMosaic.Lib.Pipeline.Value

noncomputable section

namespace Cert.GraphConv.Kernel

open Idealize.ShloMosaic Idealize.ShloMosaic.ValueIdx Idealize.ShloMosaic.TcCoe Idealize.SL.Sem
open Cert.KernelIdeal Cert.KernelIdeal.Gen
open Idealize.ShloMosaic.Pipeline (Dat)

variable (m : (ℓ : Loc nD τ sig) → Buf (Elt Ideal) ℓ) (ρ : Dev nD → PrngReg)

theorem origin : (![0, 0] : Fin 2 → Nat) = fun _ => 0 := funext fun a => by fin_cases a <;> rfl

/-- The layer of the arrays as the region finds them: the features, the neighbour means, the two weight
    matrices, the two bias rows. -/
def regionLayer (c : Dev nD) : Res.Idx → EReal :=
  layer (V m c main_v23) (V m c main_v24) (V m c main_v25) (V m c main_v26) (rowVec (V m c main_v27)) (rowVec (V m c main_v28))

/-- Where each window's block sits at step `t`: the row tiles (features, means, result) at block row `t`, the
    weights and biases at their one block. Decided over the 50 steps. -/
theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-! ### A window's block read off its array

Each read is stated for ANY contents `Y` of the window's array, so that nothing about how the region's arrays were
computed is ever looked at; the region's arrays are put in afterwards. -/

/-- Row `p` of step `t`'s block of window 0 is row `2000 t + p` of its array. -/
theorem band_read0 (c : Dev nD) (Y : Buf (Elt Ideal) ((c : Thread nD τ).loc main_v23)) (t : Fin cfg0.N) (p : Fin 2000) (k : Fin 256)
    (hp : t.val * 2000 + p.val < 100000) :
    ((cfg0.win 0).blk t).view.read (Elt Ideal) Y (ix2 p k) = (Y : Feat.Idx → EReal) (ix2 ⟨t.val * 2000 + p.val, hp⟩ k) := by
  obtain ⟨e0, e1, -⟩ := block_index t
  rw [View.read_apply]
  show (Y : Feat.Idx → EReal) (((cfg0.win 0).blk t).view.emb (ix2 p k)) = _
  refine congrArg (Y : Feat.Idx → EReal) (funext fun a => Fin.ext ?_)
  match a with
  | ⟨0, _⟩ => show win0_0.index t (0 : Fin 2) * 2000 + 1 * p.val = t.val * 2000 + p.val; omega
  | ⟨1, _⟩ => show win0_0.index t (1 : Fin 2) * 256 + 1 * k.val = k.val; omega

/-- Row `p` of step `t`'s block of window 1 is row `2000 t + p` of its array. -/
theorem band_read1 (c : Dev nD) (Y : Buf (Elt Ideal) ((c : Thread nD τ).loc main_v24)) (t : Fin cfg0.N) (p : Fin 2000) (k : Fin 256)
    (hp : t.val * 2000 + p.val < 100000) :
    ((cfg0.win 1).blk t).view.read (Elt Ideal) Y (ix2 p k) = (Y : Feat.Idx → EReal) (ix2 ⟨t.val * 2000 + p.val, hp⟩ k) := by
  obtain ⟨-, -, e0, e1, -⟩ := block_index t
  rw [View.read_apply]
  show (Y : Feat.Idx → EReal) (((cfg0.win 1).blk t).view.emb (ix2 p k)) = _
  refine congrArg (Y : Feat.Idx → EReal) (funext fun a => Fin.ext ?_)
  match a with
  | ⟨0, _⟩ => show win0_1.index t (0 : Fin 2) * 2000 + 1 * p.val = t.val * 2000 + p.val; omega
  | ⟨1, _⟩ => show win0_1.index t (1 : Fin 2) * 256 + 1 * k.val = k.val; omega

/-- Window 2's one block is its whole array. -/
theorem whole_read2 (c : Dev nD) (Y : Buf (Elt Ideal) ((c : Thread nD τ).loc main_v25)) (t : Fin cfg0.N) (k : Fin 256) (q : Fin 512) :
    ((cfg0.win 2).blk t).view.read (Elt Ideal) Y (ix2 k q) = (Y : Wt.Idx → EReal) (ix2 k q) := by
  obtain ⟨-, -, -, -, e0, e1, -⟩ := block_index t
  rw [View.read_apply]
  show (Y : Wt.Idx → EReal) (((cfg0.win 2).blk t).view.emb (ix2 k q)) = _
  refine congrArg (Y : Wt.Idx → EReal) (funext fun a => Fin.ext ?_)
  match a with
  | ⟨0, _⟩ => show win0_2.index t (0 : Fin 2) * 256 + 1 * k.val = k.val; omega
  | ⟨1, _⟩ => show win0_2.index t (1 : Fin 2) * 512 + 1 * q.val = q.val; omega

/-- Window 4's one block is its whole array. -/
theorem whole_read4 (c : Dev nD) (Y : Buf (Elt Ideal) ((c : Thread nD τ).loc main_v26)) (t : Fin cfg0.N) (k : Fin 256) (q : Fin 512) :
    ((cfg0.win 4).blk t).view.read (Elt Ideal) Y (ix2 k q) = (Y : Wt.Idx → EReal) (ix2 k q) := by
  obtain ⟨-, -, -, -, -, -, -, -, e0, e1, -⟩ := block_index t
  rw [View.read_apply]
  show (Y : Wt.Idx → EReal) (((cfg0.win 4).blk t).view.emb (ix2 k q)) = _
  refine congrArg (Y : Wt.Idx → EReal) (funext fun a => Fin.ext ?_)
  match a with
  | ⟨0, _⟩ => show win0_4.index t (0 : Fin 2) * 256 + 1 * k.val = k.val; omega
  | ⟨1, _⟩ => show win0_4.index t (1 : Fin 2) * 512 + 1 * q.val = q.val; omega

/-- Window 3's one block is its whole one-row array. -/
theorem whole_read3 (c : Dev nD) (Y : Buf (Elt Ideal) ((c : Thread nD τ).loc main_v27)) (t : Fin cfg0.N) (q : Fin 512) :
    ((cfg0.win 3).blk t).view.read (Elt Ideal) Y (ix2 (0 : Fin 1) q) = rowVec Y (ix1 q) := by
  obtain ⟨-, -, -, -, -, -, e0, e1, -⟩ := block_index t
  rw [View.read_apply]
  show (Y : BiasRow.Idx → EReal) (((cfg0.win 3).blk t).view.emb (ix2 (0 : Fin 1) q)) = (Y : BiasRow.Idx → EReal) (ix2 (0 : Fin 1) q)
  refine congrArg (Y : BiasRow.Idx → EReal) (funext fun a => Fin.ext ?_)
  match a with
  | ⟨0, _⟩ => show win0_3.index t (0 : Fin 2) * 1 + 1 * 0 = 0; omega
  | ⟨1, _⟩ => show win0_3.index t (1 : Fin 2) * 512 + 1 * q.val = q.val; omega

/-- Window 5's one block is its whole one-row array. -/
theorem whole_read5 (c : Dev nD) (Y : Buf (Elt Ideal) ((c : Thread nD τ).loc main_v28)) (t : Fin cfg0.N) (q : Fin 512) :
    ((cfg0.win 5).blk t).view.read (Elt Ideal) Y (ix2 (0 : Fin 1) q) = rowVec Y (ix1 q) := by
  obtain ⟨-, -, -, -, -, -, -, -, -, -, e0, e1, -⟩ := block_index t
  rw [View.read_apply]
  show (Y : BiasRow.Idx → EReal) (((cfg0.win 5).blk t).view.emb (ix2 (0 : Fin 1) q)) = (Y : BiasRow.Idx → EReal) (ix2 (0 : Fin 1) q)
  refine congrArg (Y : BiasRow.Idx → EReal) (funext fun a => Fin.ext ?_)
  match a with
  | ⟨0, _⟩ => show win0_5.index t (0 : Fin 2) * 1 + 1 * 0 = 0; omega
  | ⟨1, _⟩ => show win0_5.index t (1 : Fin 2) * 512 + 1 * q.val = q.val; omega

/-! ### The same reads of the region's arrays -/

/-- Row `p` of step `t`'s feature tile is row `2000 t + p` of the features. -/
theorem rows_at (c : Dev nD) (t : Fin cfg0.N) (p : Fin 2000) (k : Fin 256) (hp : t.val * 2000 + p.val < 100000) :
    (iblk m c 0 t : S2000x256.Idx → EReal) (ix2 p k) = (V m c main_v23 : Feat.Idx → EReal) (ix2 ⟨t.val * 2000 + p.val, hp⟩ k) :=
  band_read0 c (V m c main_v23) t p k hp

/-- Row `p` of step `t`'s tile of means is row `2000 t + p` of the neighbour means. -/
theorem means_at (c : Dev nD) (t : Fin cfg0.N) (p : Fin 2000) (k : Fin 256) (hp : t.val * 2000 + p.val < 100000) :
    (iblk m c 1 t : S2000x256.Idx → EReal) (ix2 p k) = (V m c main_v24 : Feat.Idx → EReal) (ix2 ⟨t.val * 2000 + p.val, hp⟩ k) :=
  band_read1 c (V m c main_v24) t p k hp

/-- Every step reads the self weights whole. -/
theorem self_weights_at (c : Dev nD) (t : Fin cfg0.N) (k : Fin 256) (q : Fin 512) :
    (iblk m c 2 t : S256x512.Idx → EReal) (ix2 k q) = (V m c main_v25 : Wt.Idx → EReal) (ix2 k q) :=
  whole_read2 c (V m c main_v25) t k q

/-- Every step reads the neighbour weights whole. -/
theorem neigh_weights_at (c : Dev nD) (t : Fin cfg0.N) (k : Fin 256) (q : Fin 512) :
    (iblk m c 4 t : S256x512.Idx → EReal) (ix2 k q) = (V m c main_v26 : Wt.Idx → EReal) (ix2 k q) :=
  whole_read4 c (V m c main_v26) t k q

/-- Every step reads the self bias row whole. -/
theorem self_bias_at (c : Dev nD) (t : Fin cfg0.N) (q : Fin 512) :
    (iblk m c 3 t : S1x512.Idx → EReal) (ix2 (0 : Fin 1) q) = rowVec (V m c main_v27) (ix1 q) :=
  whole_read3 c (V m c main_v27) t q

/-- Every step reads the neighbour bias row whole. -/
theorem neigh_bias_at (c : Dev nD) (t : Fin cfg0.N) (q : Fin 512) :
    (iblk m c 5 t : S1x512.Idx → EReal) (ix2 (0 : Fin 1) q) = rowVec (V m c main_v28) (ix1 q) :=
  whole_read5 c (V m c main_v28) t q

/-- If a tile's rows are rows `P` of `X` and `A`, and its weights and bias rows are `Ws`, `Wn`, `bs`, `bn`, then the
    entry `(p, q)` it stores is the layer at node `P`, feature `q`. -/
theorem entry_of_reads (rows mns : S2000x256.Idx → EReal) (ws wn : S256x512.Idx → EReal) (b0 b1 : S1x512.Idx → EReal)
    (X A : Feat.Idx → EReal) (Ws Wn : Wt.Idx → EReal) (bs bn : Bias.Idx → EReal) (p : Fin 2000) (q : Fin 512) (P : Fin 100000)
    (hrows : ∀ k : Fin 256, rows (ix2 p k) = X (ix2 P k)) (hmns : ∀ k : Fin 256, mns (ix2 p k) = A (ix2 P k))
    (hws : ∀ k : Fin 256, ws (ix2 k q) = Ws (ix2 k q)) (hwn : ∀ k : Fin 256, wn (ix2 k q) = Wn (ix2 k q))
    (hb0 : b0 (ix2 (0 : Fin 1) q) = bs (ix1 q)) (hb1 : b1 (ix2 (0 : Fin 1) q) = bn (ix1 q)) :
    k0_pay1 (F := Ideal) rows ws mns wn b0 b1 (ix2 p q) = layerAt X A Ws Wn bs bn P q := by
  rw [Tile.stored_apply]
  unfold layerAt rowCol
  simp only [hrows, hmns, hws, hwn, hb0, hb1]

/-- Entry `(p, q)` of the tile step `t` stores is the layer at node `2000 t + p`, feature `q`. -/
theorem tile_entry (c : Dev nD) (t : Fin cfg0.N) (p : Fin 2000) (q : Fin 512) (hp : t.val * 2000 + p.val < 100000) :
    k0_pay1 (iblk m c 0 t) (iblk m c 2 t) (iblk m c 1 t) (iblk m c 4 t) (iblk m c 3 t) (iblk m c 5 t) (ix2 p q)
      = layerAt (V m c main_v23) (V m c main_v24) (V m c main_v25) (V m c main_v26) (rowVec (V m c main_v27)) (rowVec (V m c main_v28))
          ⟨t.val * 2000 + p.val, hp⟩ q :=
  entry_of_reads (iblk m c 0 t) (iblk m c 1 t) (iblk m c 2 t) (iblk m c 4 t) (iblk m c 3 t) (iblk m c 5 t)
    (V m c main_v23) (V m c main_v24) (V m c main_v25) (V m c main_v26) (rowVec (V m c main_v27)) (rowVec (V m c main_v28))
    p q ⟨t.val * 2000 + p.val, hp⟩
    (fun k => rows_at m c t p k hp) (fun k => means_at m c t p k hp)
    (fun k => self_weights_at m c t k q) (fun k => neigh_weights_at m c t k q)
    (self_bias_at m c t q) (neigh_bias_at m c t q)

/-- Entry `(p, q)` of step `t`'s result tile sits at row `2000 t + p`, column `q` of the result. -/
theorem result_at (t : Fin cfg0.N) (p : Fin 2000) (q : Fin 512) (hp : t.val * 2000 + p.val < 100000) :
    ((cfg0.win 6).blk t).view.emb (ix2 p q) = (ix2 ⟨t.val * 2000 + p.val, hp⟩ q : Res.Idx) := by
  obtain ⟨-, -, -, -, -, -, -, -, -, -, -, -, e0, e1⟩ := block_index t
  funext a
  apply Fin.ext
  match a with
  | ⟨0, _⟩ => show win0_6.index t (0 : Fin 2) * 2000 + 1 * p.val = t.val * 2000 + p.val; omega
  | ⟨1, _⟩ => show win0_6.index t (1 : Fin 2) * 512 + 1 * q.val = q.val; omega

/-- What step `t` writes back is its band of rows of the region's layer. -/
theorem flushed_eq (c : Dev nD) (t : Fin cfg0.N) :
    (dats m 0 c).flushed 6 t = ((cfg0.win 6).blk t).view.read (Elt Ideal) (regionLayer m c) := by
  rw [Value.flushed6]
  unfold out0_6
  rw [View.canon_unit_zero origin]
  simp only [View.ld_unit_zero (S := S2000x256) origin, View.ld_unit_zero (S := S256x512) origin, View.ld_unit_zero (S := S1x512) origin]
  funext j
  obtain ⟨p, q, rfl⟩ : ∃ (p : Fin 2000) (q : Fin 512), j = ix2 p q := ⟨j 0, j 1, eq_ix2 j⟩
  have hp : t.val * 2000 + p.val < 100000 := by
    have h1 := t.isLt
    have hN : cfg0.N = 50 := N_0
    have h2 := p.isLt
    omega
  show k0_pay1 (iblk m c 0 t) (iblk m c 2 t) (iblk m c 1 t) (iblk m c 4 t) (iblk m c 3 t) (iblk m c 5 t) (ix2 p q)
    = regionLayer m c (((cfg0.win 6).blk t).view.emb (ix2 p q))
  rw [result_at t p q hp]
  exact tile_entry m c t p q hp

/-- An index of the result is in step `t`'s block iff each coordinate is in the block's range on its axis. -/
theorem mem_block (t : Fin cfg0.N) (i : S100000x512.Idx) :
    i ∈ ((cfg0.win 6).blk t).view.set ↔ ∀ a : Fin 2, win0_6.index t a * S2000x512.size a ≤ (i a).val ∧ (i a).val < win0_6.index t a * S2000x512.size a + S2000x512.size a := by
  show i ∈ ((View.whole main_v29).slice (win0_6.rect t)).set ↔ _
  rw [View.set_slice_whole, Rect.mem_set_unit]
  exact Iff.rfl

/-- Every row of the result is in some step's band: row `r` in step `r / 2000`'s. -/
theorem covered (i : S100000x512.Idx) : ∃ t : Fin cfg0.N, (cfg0.win 6).flush t = true ∧ i ∈ ((cfg0.win 6).blk t).view.set := by
  have hN : cfg0.N = 50 := N_0
  have hi0 : (i 0).val < 100000 := (i 0).isLt
  have hi1 : (i 1).val < 512 := (i 1).isLt
  have ht : (i 0).val / 2000 < cfg0.N := by rw [hN]; omega
  refine ⟨⟨(i 0).val / 2000, ht⟩, flush0_6 _, ?_⟩
  rw [mem_block]
  obtain ⟨-, -, -, -, -, -, -, -, -, -, -, -, e0, e1⟩ := block_index ⟨(i 0).val / 2000, ht⟩
  have e0' : win0_6.index ⟨(i 0).val / 2000, ht⟩ (0 : Fin 2) = (i 0).val / 2000 := e0
  intro a
  match a with
  | ⟨0, _⟩ =>
    show win0_6.index ⟨(i 0).val / 2000, ht⟩ (0 : Fin 2) * 2000 ≤ (i 0).val ∧ (i 0).val < win0_6.index ⟨(i 0).val / 2000, ht⟩ (0 : Fin 2) * 2000 + 2000
    rw [e0']; omega
  | ⟨1, _⟩ =>
    show win0_6.index ⟨(i 0).val / 2000, ht⟩ (1 : Fin 2) * 512 ≤ (i 1).val ∧ (i 1).val < win0_6.index ⟨(i 0).val / 2000, ht⟩ (1 : Fin 2) * 512 + 512
    rw [e1]; omega

/-- The result array after the run is the region's layer. -/
theorem final (c : Dev nD) : (dats m 0 c).arrAt 6 cfg0.N = regionLayer m c :=
  (dats m 0 c).arrAt_eq_of_cover 6 (regionLayer m c) (fun t _ => flushed_eq m c t) covered

/-- The kernel's run: the result array at the region's layer, the arguments unchanged. -/
theorem run : θ_run defs (onTc (τ := τ) (main (F := Ideal))) ⟨m, fun _ => 0, ρ⟩ fun r => ∀ c : Dev nD,
      r.2.mem ((c : Thread nD τ).loc main_v29) = regionLayer m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Value.run_blocks m ρ)

end Cert.GraphConv.Kernel

end
-- ==== Proof.RegionInputs.lean ====
/-
  What the region finds in its other five input arrays, in terms of the program's arguments. Before the region
  the host converts the features and both weight matrices to the matrix unit's narrow format — the identity on
  extended reals — and reshapes each bias vector into a one-row matrix, which read back as a vector is the
  vector.
-/
import proofs.«150656_j4715874091024_1_alg».proof.Proof.Gen.KernelIdeal.Frame
import proofs.«150656_j4715874091024_1_alg».proof.Proof.Spec
import Idealize.ShloMosaic.Lib.ValueLayout
import Idealize.ShloMosaic.Lib.StableHlo.Run

noncomputable section

namespace Cert.GraphConv.Inputs

open Idealize.ShloMosaic Idealize.ShloMosaic.ValueIdx Idealize.ShloMosaic.TcCoe Idealize.SL.Sem Idealize.ShloMosaic.StableHlo
open Cert.KernelIdeal Cert.KernelIdeal.Gen

variable (m : (ℓ : Loc nD τ sig) → Buf (Elt Ideal) ℓ)

/-- The region finds the features as launched. -/
theorem features_in (c : Dev nD) : (V m c main_v23 : Feat.Idx → EReal) = m ((c : Thread nD τ).loc main_arg0) := by
  dsimp only [Gen.V, Gen.hostOps0]
  after_results_simp
  rfl

/-- The region finds the self weights as launched. -/
theorem self_weights_in (c : Dev nD) : (V m c main_v25 : Wt.Idx → EReal) = m ((c : Thread nD τ).loc main_arg2) := by
  dsimp only [Gen.V, Gen.hostOps0]
  after_results_simp
  rfl

/-- The region finds the neighbour weights as launched. -/
theorem neigh_weights_in (c : Dev nD) : (V m c main_v26 : Wt.Idx → EReal) = m ((c : Thread nD τ).loc main_arg4) := by
  dsimp only [Gen.V, Gen.hostOps0]
  after_results_simp
  rfl

/-- A bias vector reshaped to one row, read back as a vector, is the vector. -/
theorem rowVec_reshape (b : Bias.Idx → EReal) (h : S512.ShapeCasts S1x512) : rowVec (shapeCast S1x512 b h) = b := by
  funext j
  obtain ⟨q, rfl⟩ : ∃ q : Fin 512, j = ix1 q := ⟨j 0, eq_ix1 j⟩
  exact shapeCast_a_1a_apply b h (0 : Fin 1) q

/-- The region finds the self bias as a one-row matrix. -/
theorem self_bias_in (c : Dev nD) : rowVec (V m c main_v27) = m ((c : Thread nD τ).loc main_arg3) := by
  have e : (V m c main_v27 : S1x512.Idx → EReal) = shapeCast S1x512 (m ((c : Thread nD τ).loc main_arg3) : Bias.Idx → EReal) shapeCasts_S512_S1x512 := by
    dsimp only [Gen.V, Gen.hostOps0]
    after_results_simp
    rfl
  rw [e, rowVec_reshape]

/-- The region finds the neighbour bias as a one-row matrix. -/
theorem neigh_bias_in (c : Dev nD) : rowVec (V m c main_v28) = m ((c : Thread nD τ).loc main_arg5) := by
  have e : (V m c main_v28 : S1x512.Idx → EReal) = shapeCast S1x512 (m ((c : Thread nD τ).loc main_arg5) : Bias.Idx → EReal) shapeCasts_S512_S1x512 := by
    dsimp only [Gen.V, Gen.hostOps0]
    after_results_simp
    rfl
  rw [e, rowVec_reshape]

end Cert.GraphConv.Inputs

end
-- ==== Proof.RegionMeans.lean ====
/-
  The neighbour means the region is handed. Before the region the host gathers, for every edge, the source
  node's row of features (a negative node index wrapped by the node count), adds the rows into their target
  nodes, and divides each node's sum by its in-degree — a scatter-add of ones — clamped below by one; the
  conversion to the matrix unit's narrow format that follows is the identity on extended reals. The reference
  computes its neighbour means by the same operations, in the same order, over the same literals: the two are
  one array of the features and the edge list, and nothing of the gather or the scatter is opened.
-/
import proofs.«150656_j4715874091024_1_alg».proof.Proof.Gen.KernelIdeal.Frame
import proofs.«150656_j4715874091024_1_alg».proof.Proof.RefLayer
import Idealize.ShloMosaic.Lib.StableHlo.Run

noncomputable section

namespace Cert.GraphConv.Inputs

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ)

set_option maxHeartbeats 2000000 in
/-- The region finds the reference's neighbour means of the launched features and edge list. -/
theorem means_in (c : Dev nD) :
    (V m c main_v24 : Feat.Idx → EReal)
      = Reference.means (m ((c : Thread nD τ).loc main_arg0)) (m ((c : Thread nD τ).loc main_arg1)) := by
  dsimp only [Gen.V, Gen.hostOps0]
  after_results_simp
  rfl

end Cert.GraphConv.Inputs

end
-- ==== Proof.KernelLayer.lean ====
/-
  The kernel computes the layer: its result array ends holding `layer` of the arrays the region finds, and
  those are the arguments themselves (the narrow-format conversions are the identity, the bias rows are the
  bias vectors) and the neighbour means — the same array the reference computes.
-/
import proofs.«150656_j4715874091024_1_alg».proof.Proof.KernelArray
import proofs.«150656_j4715874091024_1_alg».proof.Proof.RegionInputs
import proofs.«150656_j4715874091024_1_alg».proof.Proof.RegionMeans

noncomputable section

namespace Cert.GraphConv.Kernel

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg)

/-- The layer of the kernel's arguments, with the neighbour means the reference's function of the features and
    the edge list. -/
def argLayer (c : Dev nD) : Res.Idx → EReal :=
  layer (m ((c : Thread nD τ).loc main_arg0))
    (Reference.means (m ((c : Thread nD τ).loc main_arg0)) (m ((c : Thread nD τ).loc main_arg1)))
    (m ((c : Thread nD τ).loc main_arg2)) (m ((c : Thread nD τ).loc main_arg4))
    (m ((c : Thread nD τ).loc main_arg3)) (m ((c : Thread nD τ).loc main_arg5))

/-- The region's layer is the layer of the arguments. -/
theorem regionLayer_eq (c : Dev nD) : regionLayer m c = argLayer m c := by
  unfold regionLayer argLayer
  rw [Inputs.features_in, Inputs.means_in, Inputs.self_weights_in, Inputs.neigh_weights_in, Inputs.self_bias_in,
    Inputs.neigh_bias_in]

/-- The kernel's run: the result array at the layer of the arguments, the arguments unchanged. -/
theorem run_layer : θ_run defs (onTc (τ := τ) (main (F := Ideal))) ⟨m, fun _ => 0, ρ⟩ fun r => ∀ c : Dev nD,
      r.2.mem ((c : Thread nD τ).loc main_v29) = argLayer m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (regionLayer_eq m c), (h c).2⟩) (run m ρ)

end Cert.GraphConv.Kernel

end
-- ==== Proof.lean ====
/-
  A graph-convolution layer: for every node, its own features times the self weights plus the self bias, plus
  the mean of its in-neighbours' features times the neighbour weights plus the neighbour bias.

  Both programs compute the neighbour means on the host by the same operations (gather the source rows, add them
  into their target nodes, divide by the in-degree clamped below by one), so the means are one array of the
  arguments and are never opened. The kernel then runs over 50 bands of 2000 nodes; on each band it forms the two
  matrix products on the matrix unit (operands narrowed to 16 bits, which at exact arithmetic changes nothing)
  and adds `((X·Ws + bs) + A·Wn) + bn`. The reference forms `(X·Ws + bs) + (A·Wn + bn)` with whole-array products.
  A matrix product is, entry by entry, the sum over the 256 shared features of the products, whatever the tiling;
  the bands tile the 100000 rows; and the two groupings of the four-term sum agree because addition of extended
  reals is associative — at every input, so finiteness of the inputs is never used.

  The modules: `Spec` (the layer as one function, and the regrouping), `RefLayer` (the reference is that function),
  `TileValue` (one band's stored tile, entry by entry), `KernelArray` (bands to the whole array), `RegionInputs`
  and `RegionMeans` (what the kernel's region is handed, in terms of the arguments), `KernelLayer` (the kernel is that function).
-/
import proofs.«150656_j4715874091024_1_alg».proof.Defs
import proofs.«150656_j4715874091024_1_alg».proof.Proof.Gen.Kernel
import proofs.«150656_j4715874091024_1_alg».proof.Proof.Gen.Kernel.Frame
import proofs.«150656_j4715874091024_1_alg».proof.Proof.Gen.KernelIdeal
import proofs.«150656_j4715874091024_1_alg».proof.Proof.Gen.KernelIdeal.Frame
import proofs.«150656_j4715874091024_1_alg».proof.Proof.Gen.KernelIdeal.Value
import proofs.«150656_j4715874091024_1_alg».proof.Proof.Gen.ReferenceIdeal
import proofs.«150656_j4715874091024_1_alg».proof.Proof.Gen.ReferenceIdeal.Run
import proofs.«150656_j4715874091024_1_alg».proof.Proof.Gen.ReferenceIdeal.Read
import proofs.«150656_j4715874091024_1_alg».proof.Proof.Gen.Pre_finite_inputs
import proofs.«150656_j4715874091024_1_alg».proof.Proof.RefLayer
import proofs.«150656_j4715874091024_1_alg».proof.Proof.KernelLayer
import Idealize.ShloMosaic.Adequacy
import Idealize.ShloMosaic.Init

noncomputable section

namespace Cert.Proof

open Idealize.ShloMosaic Idealize.SL.Sem

/-- The kernel as printed runs and leaves its arguments as they were. -/
theorem frame_kernel : Cert.frame_Kernel := fun m ρ _ => Cert.Kernel.Gen.frame m ρ

/-- So does the kernel read at exact arithmetic. -/
theorem frame_kernel_ideal : Cert.frame_KernelIdeal := fun m ρ _ => Cert.KernelIdeal.Gen.frame m ρ

/-- The reference is a straight line of host operations: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Nothing of the kernel was rewritten on the way to exact arithmetic. -/
theorem preserves : Cert.preserves_Kernel_KernelIdeal := trivial

/-- From memories that agree on the arguments, both programs end with the layer of those arguments as their
    result: the kernel by bands (`Kernel.run_layer`), the reference by whole-array operations
    (`Reference.result_eq`). -/
theorem algebraic : Cert.algebraic_KernelIdeal_ReferenceIdeal := by
  intro m ρ m' ρ' _ hagree
  refine ⟨fun c => Cert.GraphConv.Kernel.argLayer m c, Cert.GraphConv.Kernel.run_layer m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v31_eq, Cert.GraphConv.Reference.result_eq]
  obtain ⟨h0, h1, h2, h3, h4, h5⟩ := hagree c
  rw [h0, h1, h2, h3, h4, h5]
  rfl

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
